-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1x1024x1024 : Shape := ⟨4, ![32, 1, 1024, 1024]⟩
abbrev S_ : Shape := ⟨0, ![]⟩

class Facts : Prop where
  bcast_S_S32x1x1024x1024 : S_.BroadcastsInDim S32x1x1024x1024 (![] : Fin 0 → Fin S32x1x1024x1024.rank)
  reducesTo_S32x1x1024x1024_S_d0_1_2_3 : S32x1x1024x1024.ReducesTo [0, 1, 2, 3] S_
  h_S_ : 0 < S_.numel

variable [Facts]

def fn {F : FTy → Type} [FloatOps F] (main_arg0 : FVec F S32x1x1024x1024 .f32) : IVec S_ 1 :=
  let main_v0 : FVec F S32x1x1024x1024 .f32 := Host.absf main_arg0
  let main_cst : FVec F S_ .f32 := constant S_ .f32 0x7F800000#32
  let main_v1 : FVec F S32x1x1024x1024 .f32 := broadcastInDim S32x1x1024x1024 ![] bcast_S_S32x1x1024x1024 main_cst
  let main_v2 : IVec S32x1x1024x1024 1 := cmpf .olt main_v0 main_v1
  let main_c : IVec S_ 1 := constantI S_ 1 1#1
  let main_v3 : IVec S_ 1 := (fun x v => Host.reduce IntOp.andi x v reducesTo_S32x1x1024x1024_S_d0_1_2_3 h_S_) main_v2 main_c
  main_v3
-- ==== Kernel.lean ====
abbrev S32x1x1024x1024 : Shape := ⟨4, ![32, 1, 1024, 1024]⟩
abbrev S2x1x1024x1024 : Shape := ⟨4, ![2, 1, 1024, 1024]⟩

abbrev nBuf : Space → Nat
  | .hbm => 2
  | .vmem => 4
  | .smem => 0
  | _ => 0

abbrev bufTy : (tb : Table) → Fin (tcTables nBuf tb) → BufTy
  | .hbm, ⟨0, _⟩ => ⟨S32x1x1024x1024, .f32⟩
  | .hbm, ⟨1, _⟩ => ⟨S32x1x1024x1024, .f32⟩
  | .local _ .vmem, ⟨0, _⟩ => ⟨S2x1x1024x1024, .f32⟩
  | .local _ .vmem, ⟨1, _⟩ => ⟨S2x1x1024x1024, .f32⟩
  | .local _ .vmem, ⟨2, _⟩ => ⟨S2x1x1024x1024, .f32⟩
  | .local _ .vmem, ⟨3, _⟩ => ⟨S2x1x1024x1024, .f32⟩
  | _, _ => ⟨S32x1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2x1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S2x1x1024x1024_S2x1x1024x1024_0_0_0_0 : ∀ a, (![0, 0, 0, 0] : Fin 4 → Nat) a + S2x1x1024x1024.size a ≤ S2x1x1024x1024.size a
  h_S2x1x1024x1024 : 0 < S2x1x1024x1024.numel
  rotates_S2x1x1024x1024_d2 : S2x1x1024x1024.Rotates 2 none
  iota_S2x1x1024x1024_d2_w32 : S2x1x1024x1024.Iotas .tc 32 [2]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x1x1024x1024.size a ≤ S32x1x1024x1024.size a
  hwx0_0 : ∀ i : grid0.Coords, EltTy.bits .f32 = 32 ∨ (Rect.block (s := S32x1x1024x1024) S2x1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x1x1024x1024.size a ≤ S32x1x1024x1024.size a
  hwx0_1 : ∀ i : grid0.Coords, EltTy.bits .f32 = 32 ∨ (Rect.block (s := S32x1x1024x1024) S2x1x1024x1024.size (cc0_transform_1 i) (hinb0_1 i)).WholeWords (EltTy.packing .f32)

variable [Facts₀]

abbrev win0_0 : Pipeline.Window sig grid0 :=
  Pipeline.Window.ofSpec (Memref.whole main_arg0) S2x1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2x1x1024x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x1x1024x1024 : Shape := ⟨4, ![32, 1, 1024, 1024]⟩
abbrev S_ : Shape := ⟨0, ![]⟩
abbrev S32x1x1028x1028 : Shape := ⟨4, ![32, 1, 1028, 1028]⟩

abbrev nBuf : Space → Nat
  | .hbm => 10
  | .vmem => 0
  | .smem => 0
  | _ => 0

abbrev bufTy : (tb : Table) → Fin (tcTables nBuf tb) → BufTy
  | .hbm, ⟨0, _⟩ => ⟨S32x1x1024x1024, .f32⟩
  | .hbm, ⟨1, _⟩ => ⟨S_, .i32⟩
  | .hbm, ⟨2, _⟩ => ⟨S_, .f32⟩
  | .hbm, ⟨3, _⟩ => ⟨S32x1x1028x1028, .f32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S32x1x1024x1024, .f32⟩
  | .hbm, ⟨9, _⟩ => ⟨S32x1x1024x1024, .f32⟩
  | _, _ => ⟨S32x1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_c_0 : Ref sig .tc := ⟨.hbm, 4, rfl⟩
abbrev main_c_1 : Ref sig .tc := ⟨.hbm, 5, rfl⟩
abbrev main_c_2 : Ref sig .tc := ⟨.hbm, 6, rfl⟩
abbrev main_c_3 : Ref sig .tc := ⟨.hbm, 7, rfl⟩
abbrev main_v1 : Ref sig .tc := ⟨.hbm, 8, rfl⟩
abbrev main_v2 : Ref sig .tc := ⟨.hbm, 9, rfl⟩

abbrev nD : Nat := 1
abbrev τ : Topo := Topo.v7x

variable {F : FTy → Type} [FloatOps F]

class Facts₀ : Prop where
  pads_S32x1x1024x1024_S32x1x1028x1028_000_000_220_220 : S32x1x1024x1024.Pads (![0, 0, 2, 2] : Fin 4 → Nat) ![0, 0, 2, 2] ![0, 0, 0, 0] S32x1x1028x1028
  h_S_ : 0 < S_.numel
  sliceFits_S32x1x1028x1028_S32x1x1024x1024 : S32x1x1028x1028.Slices (fun _ => 0) S32x1x1024x1024

variable [Facts₀]

class Facts : Prop extends Facts₀ where

variable [Facts]
-- ==== Proof.ShiftSpec.lean ====
/-
  The function both programs compute, on the extended reals.

  An input is 32 one-channel images of 1024 rows and 1024 columns. The operation is a 5×5 cross-correlation whose
  only nonzero taps are +1 at the centre and −1 two rows above it, with zero padding: the entry at row `r` and
  column `q` of an image becomes itself minus the entry of the same image and column at row `r − 2`; rows 0 and 1
  have no such entry and a zero is subtracted from them instead.

  Nothing here needs the entries to be finite: the two programs are compared as the same expression
  `x − y` of the same two extended reals, never rearranged.
-/
import Idealize.ShloMosaic.PureOps.Ideal
import Idealize.ShloMosaic.Lib.ValueIdx

noncomputable section

namespace Cert.ShiftSpec

open Idealize.ShloMosaic Idealize.ShloMosaic.ValueIdx

/-- The shape of the input and of the result: image, channel, row, column. -/
abbrev Img : Shape := ⟨4, ![32, 1, 1024, 1024]⟩

/-- The entry two rows above `(b, z, r, q)` in the same image and column, or zero in the first two rows. -/
def above (x : Img.Idx → EReal) (b : Fin 32) (z : Fin 1) (r q : Fin 1024) : EReal :=
  if h : 2 ≤ r.val then x (ix4 b z ⟨r.val - 2, by omega⟩ q) else 0

/-- The result at explicit coordinates: the entry minus the one two rows above it. -/
def shiftSubAt (x : Img.Idx → EReal) (b : Fin 32) (z : Fin 1) (r q : Fin 1024) : EReal :=
  x (ix4 b z r q) - above x b z r q

/-- The result array as one function of the input array. -/
def shiftSub (x : Img.Idx → EReal) : Img.Idx → EReal := fun i => shiftSubAt x (i 0) (i 1) (i 2) (i 3)

/-- At an index given by its coordinates the result is the coordinate form. -/
theorem shiftSub_ix4 (x : Img.Idx → EReal) (b : Fin 32) (z : Fin 1) (r q : Fin 1024) :
    shiftSub x (ix4 b z r q) = shiftSubAt x b z r q := rfl

end Cert.ShiftSpec

end
-- ==== Proof.RefShift.lean ====
/-
  The reference's result, read at an index, is the specification.

  The reference pads the input with two zeros on each side of the row and column axes (the padding value is the integer
  zero converted to a float, which is the float zero), takes from the padded array the 32×1×1024×1024 block starting at
  row 0 and column 2, and subtracts it from the input. Entry `(b, z, r, q)` of that block is entry `(b, z, r, q + 2)` of
  the padded array: its column `q + 2` is always inside the input, at column `q`; its row `r` is inside the input, at
  row `r − 2`, exactly when `r ≥ 2`, and in the low padding otherwise. The start indices 0, 0, 0, 2 leave the block
  inside the padded array, so the slice is not clamped.
-/
import proofs.«163202_j29454885716034_2_alg».proof.Proof.Gen.ReferenceIdeal
import proofs.«163202_j29454885716034_2_alg».proof.Proof.ShiftSpec
import Idealize.ShloMosaic.Lib.KernelVsHost
import Idealize.ShloMosaic.Lib.DynamicIndex

noncomputable section

namespace Cert.ReferenceIdeal.RefValue

open Cert.ReferenceIdeal Cert.ReferenceIdeal.Gen Idealize.ShloMosaic Idealize.ShloMosaic.ValueIdx Cert.ShiftSpec

/-- The block of the result's shape at rows from 0 and columns from 2 fits the padded array. -/
theorem slice_fits : S32x1x1028x1028.Slices ![0, 0, 0, 2] S32x1x1024x1024 := by decide

/-- The start indices the program passes, read signed, are 0, 0, 0, 2. -/
theorem starts_eq (a : Fin 4) :
    (((![constantI S_ 32 0#32, constantI S_ 32 0#32, constantI S_ 32 0#32, constantI S_ 32 2#32]
        : Fin 4 → (⟨S_, .i32⟩ : BufTy).Contents (Elt Ideal))) a (Shape.Idx.first h_S_)).toInt
      = ((![0, 0, 0, 2] : Fin 4 → Nat) a : Int) := by
  match a with
  | ⟨0, _⟩ => rfl
  | ⟨1, _⟩ => rfl
  | ⟨2, _⟩ => rfl
  | ⟨3, _⟩ => rfl

/-- The padding value: the integer zero converted is the float zero. -/
theorem pad_value : (sitofp .f32 (constantI S_ 32 0#32) : FVec Ideal S_ .f32) (Shape.Idx.first h_S_) = 0 :=
  sitofp_zero

/-- THE SHIFTED OPERAND at `(b, z, r, q)`: the input two rows above, or zero in rows 0 and 1. -/
theorem shifted_apply (x : FVec Ideal S32x1x1024x1024 .f32) (b : Fin 32) (z : Fin 1) (r q : Fin 1024) :
    Host.dynamicSlice S32x1x1024x1024
        (pad S32x1x1028x1028 ![0, 0, 2, 2] ![0, 0, 2, 2] ![0, 0, 0, 0] x (sitofp .f32 (constantI S_ 32 0#32))
          pads_S32x1x1024x1024_S32x1x1028x1028_000_000_220_220 h_S_)
        (fun k => (((![constantI S_ 32 0#32, constantI S_ 32 0#32, constantI S_ 32 0#32, constantI S_ 32 2#32]
          : Fin 4 → (⟨S_, .i32⟩ : BufTy).Contents (Elt Ideal))) k (Shape.Idx.first h_S_)).toInt)
        sliceFits_S32x1x1028x1028_S32x1x1024x1024 (ix4 b z r q)
      = above x b z r q := by
  have hr : r.val < 1024 := r.isLt
  have hq : q.val < 1024 := q.isLt
  rw [Host.dynamicSlice_eq_extractStridedSlice S32x1x1024x1024 _ _ ![0, 0, 0, 2]
    sliceFits_S32x1x1028x1028_S32x1x1024x1024 slice_fits starts_eq]
  rw [extractStridedSlice_apply ![0, 0, 0, 2] _ slice_fits (ix4 b z r q)
    (ix4 b z ⟨r.val, by omega⟩ ⟨q.val + 2, by omega⟩) (fun a => by
      match a with
      | ⟨0, _⟩ => show b.val = 0 + b.val; omega
      | ⟨1, _⟩ => show z.val = 0 + z.val; omega
      | ⟨2, _⟩ => show r.val = 0 + r.val; omega
      | ⟨3, _⟩ => show q.val + 2 = 2 + q.val; omega)]
  unfold above
  by_cases h : 2 ≤ r.val
  · rw [dif_pos h]
    exact pad_apply_of_inside ![0, 0, 2, 2] ![0, 0, 2, 2] ![0, 0, 0, 0] x _
      pads_S32x1x1024x1024_S32x1x1028x1028_000_000_220_220 h_S_ _ (ix4 b z ⟨r.val - 2, by omega⟩ q) (fun a => by
        match a with
        | ⟨0, _⟩ => show b.val = 0 + b.val * (0 + 1); omega
        | ⟨1, _⟩ => show z.val = 0 + z.val * (0 + 1); omega
        | ⟨2, _⟩ => show r.val = 2 + (r.val - 2) * (0 + 1); omega
        | ⟨3, _⟩ => show q.val + 2 = 2 + q.val * (0 + 1); omega)
  · rw [dif_neg h]
    refine (pad_apply_of_not_inside ![0, 0, 2, 2] ![0, 0, 2, 2] ![0, 0, 0, 0] x _
      pads_S32x1x1024x1024_S32x1x1028x1028_000_000_220_220 h_S_ _ (2 : Fin 4) (fun hin => h ?_)).trans pad_value
    exact hin.1

/-- THE REFERENCE'S RESULT is the specification of its argument. -/
theorem reference_eq (x : FVec Ideal S32x1x1024x1024 .f32) :
    subf x (Host.dynamicSlice S32x1x1024x1024
        (pad S32x1x1028x1028 ![0, 0, 2, 2] ![0, 0, 2, 2] ![0, 0, 0, 0] x (sitofp .f32 (constantI S_ 32 0#32))
          pads_S32x1x1024x1024_S32x1x1028x1028_000_000_220_220 h_S_)
        (fun k => (((![constantI S_ 32 0#32, constantI S_ 32 0#32, constantI S_ 32 0#32, constantI S_ 32 2#32]
          : Fin 4 → (⟨S_, .i32⟩ : BufTy).Contents (Elt Ideal))) k (Shape.Idx.first h_S_)).toInt)
        sliceFits_S32x1x1028x1028_S32x1x1024x1024)
      = shiftSub x := by
  funext i
  obtain ⟨b, z, r, q, rfl⟩ : ∃ (b : Fin 32) (z : Fin 1) (r q : Fin 1024), i = ix4 b z r q :=
    ⟨i 0, i 1, i 2, i 3, eq_ix4 i⟩
  rw [subf_apply, shifted_apply, shiftSub_ix4]
  rfl

end Cert.ReferenceIdeal.RefValue

end
-- ==== Proof.KernelShift.lean ====
/-
  The kernel body's stored value, read at an index.

  The body loads a block of two images, rotates it by two rows (each row moves to the row two below, the last two
  rows coming around to the top), keeps the rotated entry only from row 2 on — the row counter compared with 2 —
  and a zero in rows 0 and 1, and subtracts that from the block. So at row `r` the stored value is the entry minus
  the one two rows above it when `r ≥ 2`, and the entry minus zero otherwise: what comes around the end is never
  used.
-/
import proofs.«163202_j29454885716034_2_alg».proof.Proof.Gen.KernelIdeal.Skeleton
import Idealize.ShloMosaic.Lib.KernelVsHost
import Idealize.ShloMosaic.Lib.DynamicIndex
import Idealize.ShloMosaic.Lib.Affine

noncomputable section

namespace Cert.KernelIdeal.BlockValue

open Cert.KernelIdeal Cert.KernelIdeal.Gen Idealize.ShloMosaic Idealize.ShloMosaic.ValueIdx

/-- The row counter of the block at `(b, z, r, q)` is the row `r`, as a 32-bit word. -/
theorem row_counter (b : Fin 2) (z : Fin 1) (r q : Fin 1024) :
    iota .tc S2x1x1024x1024 32 [2] iota_S2x1x1024x1024_d2_w32 (ix4 b z r q) = BitVec.ofNat 32 r.val :=
  iota_single_apply .tc S2x1x1024x1024 32 2 iota_S2x1x1024x1024_d2_w32 (ix4 b z r q)

/-- The comparison "row counter ≥ 2", read signed, is the comparison of the row with 2. -/
theorem row_ge_two (r : Fin 1024) : IntOp.cmpi .sge (BitVec.ofNat 32 r.val) 2#32 = 1#1 ↔ 2 ≤ r.val := by
  have hr : (BitVec.ofNat 32 r.val).toInt = (r.val : Int) := toInt_ofNat_of_lt (by have := r.isLt; omega)
  have h2 : (2#32 : BitVec 32).toInt = 2 := by decide
  rw [IntOp.cmpi_sge, hr, h2]
  omega

/-- From row 2 on, the block rotated by two rows holds at row `r` the block's entry at row `r − 2`. -/
theorem rotated_apply (x0 : FVec Ideal S2x1x1024x1024 .f32) (b : Fin 2) (z : Fin 1) (r q : Fin 1024) (h : 2 ≤ r.val) :
    dynamicRotate 2 2#32 none x0 rotates_S2x1x1024x1024_d2 (ix4 b z r q) = x0 (ix4 b z ⟨r.val - 2, by omega⟩ q) := by
  refine dynamicRotate_apply 2 2#32 x0 rotates_S2x1x1024x1024_d2 (ix4 b z r q) (ix4 b z ⟨r.val - 2, by omega⟩ q) fun a => ?_
  have hr : r.val < 1024 := r.isLt
  match a with
  | ⟨0, _⟩ => rfl
  | ⟨1, _⟩ => rfl
  | ⟨2, _⟩ =>
    show r.val - 2 = if (2 : Fin 4) = 2 then (r.val + 1024 - (2#32 : BitVec 32).toNat % 1024) % 1024 else r.val
    rw [if_pos rfl]
    show r.val - 2 = (r.val + 1024 - 2 % 1024) % 1024
    omega
  | ⟨3, _⟩ => rfl

/-- THE STORED VALUE at `(b, z, r, q)`: the block's entry minus the entry two rows above it, or minus zero in rows 0 and 1. -/
theorem payload_apply (x0 : FVec Ideal S2x1x1024x1024 .f32) (b : Fin 2) (z : Fin 1) (r q : Fin 1024) :
    k0_pay1 (F := Ideal) x0 (ix4 b z r q)
      = x0 (ix4 b z r q) - (if h : 2 ≤ r.val then x0 (ix4 b z ⟨r.val - 2, by omega⟩ q) else 0) := by
  unfold k0_pay1
  show x0 (ix4 b z r q)
      - Scalar.select (IntOp.cmpi .sge (iota .tc S2x1x1024x1024 32 [2] iota_S2x1x1024x1024_d2_w32 (ix4 b z r q)) 2#32)
          (dynamicRotate 2 2#32 none x0 rotates_S2x1x1024x1024_d2 (ix4 b z r q)) (Ideal.ofBits .f32 0x00000000#32) = _
  refine congrArg (x0 (ix4 b z r q) - ·) ?_
  rw [row_counter]
  by_cases h : 2 ≤ r.val
  · rw [dif_pos h, (row_ge_two r).mpr h, select_one]
    exact rotated_apply x0 b z r q h
  · rw [dif_neg h, eq_zero_of_ne_one (fun e => h ((row_ge_two r).mp e)), select_zero]
    exact Ideal.ofBits_zero_f32

end Cert.KernelIdeal.BlockValue

end
-- ==== Proof.ShiftBlocks.lean ====
/-
  From the blocks to the whole result array.

  The grid has 16 points; point `t` stages images `2t` and `2t + 1` whole (all rows and columns) for the input and
  for the output alike, and writes its output block back. Entry `(b, z, r, q)` of a block is entry
  `(2t + b, z, r, q)` of the array. Because a block holds every row of its images, the entry two rows above an
  entry of the block is in the same block: so what point `t` writes back is block `t` of the specification of the
  whole input array. Image `n` lies in the block of point `n / 2`, so the 16 blocks cover the result array, which
  therefore ends as the specification of the argument.
-/
import proofs.«163202_j29454885716034_2_alg».proof.Proof.Gen.KernelIdeal.Value
import proofs.«163202_j29454885716034_2_alg».proof.Proof.KernelShift
import proofs.«163202_j29454885716034_2_alg».proof.Proof.ShiftSpec

set_option maxRecDepth 16384

noncomputable section

namespace Cert.KernelIdeal.ArrayValue

open Cert.KernelIdeal Cert.KernelIdeal.Gen Cert.KernelIdeal.BlockValue Cert.ShiftSpec
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zero_offsets : (![0, 0, 0, 0] : Fin 4 → Nat) = fun _ => 0 := funext fun a => by fin_cases a <;> rfl

/-- Entry `(b, z, r, q)` of the block of images `2T` and `2T + 1`, as an index of the array. -/
def blockIdx (T : Nat) (hT : T < 16) (b : Fin 2) (z : Fin 1) (r q : Fin 1024) : Img.Idx :=
  ix4 ⟨T * 2 + b.val, by omega⟩ z r q

/-- A block that holds the entries of the array `X` at the images `2T`, `2T + 1` stores block `T` of the
    specification of `X`: the entry two rows above an entry of the block is in the block. -/
theorem payload_block (X : Img.Idx → EReal) (T : Nat) (hT : T < 16) (x0 : FVec Ideal S2x1x1024x1024 .f32)
    (hx : ∀ (b : Fin 2) (z : Fin 1) (r q : Fin 1024), x0 (ix4 b z r q) = X (blockIdx T hT b z r q))
    (b : Fin 2) (z : Fin 1) (r q : Fin 1024) :
    k0_pay1 (F := Ideal) x0 (ix4 b z r q) = shiftSub X (blockIdx T hT b z r q) := by
  rw [payload_apply, hx]
  show _ = shiftSubAt X ⟨T * 2 + b.val, by omega⟩ z r q
  unfold shiftSubAt above
  refine congrArg (X (blockIdx T hT b z r q) - ·) ?_
  by_cases h : 2 ≤ r.val
  · rw [dif_pos h, dif_pos h, hx]; rfl
  · rw [dif_neg h, dif_neg h]

/-- The printed index maps, decided over the 16 grid points: both windows' block index is the point on the image
    axis and zero on the others. -/
theorem index_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 4) = t.val ∧ win0_1.index t (1 : Fin 4) = 0 ∧ win0_1.index t (2 : Fin 4) = 0 ∧ win0_1.index t (3 : Fin 4) = 0 :=
  (by decide +kernel : ∀ t : Fin grid0.N, _)

/-- Every pair of images is some point's block. -/
theorem index_onto : ∀ p : Fin 16, ∃ t : Fin cfg0.N, win0_1.index t = ![p.val, 0, 0, 0] :=
  (by decide +kernel : ∀ p : Fin 16, ∃ t : Fin grid0.N, win0_1.index t = ![p.val, 0, 0, 0])

theorem point_lt (t : Fin cfg0.N) : t.val < 16 := by
  have h : t.val < grid0.N := t.isLt
  rw [N_0] at h
  exact h

/-- WHAT POINT `t` WRITES BACK is block `t` of the specification of the input array as the region finds it. -/
theorem flushed_eq (c : Dev nD) (t : Fin cfg0.N) :
    (dats m 0 c).flushed 1 t = ((cfg0.win 1).blk t).view.read (Elt Ideal) (shiftSub (V m c main_arg0)) := by
  rw [Value.flushed1]
  unfold out0_1
  rw [View.canon_unit_zero zero_offsets]
  simp only [View.ld_unit_zero (S := S2x1x1024x1024) zero_offsets]
  obtain ⟨e0, e1, e2, e3, f0, f1, f2, f3⟩ := index_facts t
  funext y
  obtain ⟨b, z, r, q, rfl⟩ : ∃ (b : Fin 2) (z : Fin 1) (r q : Fin 1024), y = ix4 b z r q :=
    ⟨y 0, y 1, y 2, y 3, eq_ix4 y⟩
  have hb : b.val < 2 := b.isLt
  show k0_pay1 (F := Ideal) (iblk m c 0 t) (ix4 b z r q)
      = shiftSub (V m c main_arg0) (((cfg0.win 1).blk t).view.emb (ix4 b z r q))
  refine (payload_block (V m c main_arg0) t.val (point_lt t) (iblk m c 0 t) (fun b' z' r' q' => ?_) b z r q).trans ?_
  · show V m c main_arg0 (((cfg0.win 0).blk t).view.emb (ix4 b' z' r' q')) = V m c main_arg0 (blockIdx t.val (point_lt t) b' z' r' q')
    refine congrArg (V m c main_arg0) (funext fun a => Fin.ext ?_)
    match a with
    | ⟨0, _⟩ => show win0_0.index t (0 : Fin 4) * 2 + 1 * b'.val = t.val * 2 + b'.val; rw [e0]; omega
    | ⟨1, _⟩ => show win0_0.index t (1 : Fin 4) * 1 + 1 * z'.val = z'.val; rw [e1]; omega
    | ⟨2, _⟩ => show win0_0.index t (2 : Fin 4) * 1024 + 1 * r'.val = r'.val; rw [e2]; omega
    | ⟨3, _⟩ => show win0_0.index t (3 : Fin 4) * 1024 + 1 * q'.val = q'.val; rw [e3]; omega
  · refine congrArg (shiftSub (V m c main_arg0)) (funext fun a => Fin.ext ?_)
    match a with
    | ⟨0, _⟩ => show t.val * 2 + b.val = win0_1.index t (0 : Fin 4) * 2 + 1 * b.val; rw [f0]; omega
    | ⟨1, _⟩ => show z.val = win0_1.index t (1 : Fin 4) * 1 + 1 * z.val; rw [f1]; omega
    | ⟨2, _⟩ => show r.val = win0_1.index t (2 : Fin 4) * 1024 + 1 * r.val; rw [f2]; omega
    | ⟨3, _⟩ => show q.val = win0_1.index t (3 : Fin 4) * 1024 + 1 * q.val; rw [f3]; omega

/-- An index of the array is in point `t`'s block iff each coordinate is in the block's range on its axis. -/
theorem mem_block (t : Fin cfg0.N) (i : S32x1x1024x1024.Idx) :
    i ∈ ((cfg0.win 1).blk t).view.set ↔ ∀ a : Fin 4, win0_1.index t a * S2x1x1024x1024.size a ≤ (i a).val
      ∧ (i a).val < win0_1.index t a * S2x1x1024x1024.size a + S2x1x1024x1024.size a := by
  show i ∈ ((View.whole main_v0).slice (win0_1.rect t)).set ↔ _
  rw [View.set_slice_whole, Rect.mem_set_unit]
  exact Iff.rfl

/-- THE BLOCKS COVER THE ARRAY: image `n` is in the block of point `n / 2`. -/
theorem covered (i : S32x1x1024x1024.Idx) :
    ∃ t : Fin cfg0.N, (cfg0.win 1).flush t = true ∧ i ∈ ((cfg0.win 1).blk t).view.set := by
  have hi0 : (i 0).val < 32 := (i 0).isLt
  have hi1 : (i 1).val < 1 := (i 1).isLt
  have hi2 : (i 2).val < 1024 := (i 2).isLt
  have hi3 : (i 3).val < 1024 := (i 3).isLt
  obtain ⟨t, ht⟩ := index_onto ⟨(i 0).val / 2, by omega⟩
  have q0 : win0_1.index t (0 : Fin 4) = (i 0).val / 2 := congrFun ht 0
  have q1 : win0_1.index t (1 : Fin 4) = 0 := congrFun ht 1
  have q2 : win0_1.index t (2 : Fin 4) = 0 := congrFun ht 2
  have q3 : win0_1.index t (3 : Fin 4) = 0 := congrFun ht 3
  refine ⟨t, flush0_1 t, ?_⟩
  rw [mem_block]
  intro a
  match a with
  | ⟨0, _⟩ => show win0_1.index t (0 : Fin 4) * 2 ≤ (i 0).val ∧ (i 0).val < win0_1.index t (0 : Fin 4) * 2 + 2; omega
  | ⟨1, _⟩ => show win0_1.index t (1 : Fin 4) * 1 ≤ (i 1).val ∧ (i 1).val < win0_1.index t (1 : Fin 4) * 1 + 1; omega
  | ⟨2, _⟩ => show win0_1.index t (2 : Fin 4) * 1024 ≤ (i 2).val ∧ (i 2).val < win0_1.index t (2 : Fin 4) * 1024 + 1024; omega
  | ⟨3, _⟩ => show win0_1.index t (3 : Fin 4) * 1024 ≤ (i 3).val ∧ (i 3).val < win0_1.index t (3 : Fin 4) * 1024 + 1024; omega

/-- THE RESULT ARRAY after the run is the specification of the argument array. -/
theorem final (c : Dev nD) :
    (dats m 0 c).arrAt 1 cfg0.N = shiftSub (m ((c : Thread nD τ).loc main_arg0)) :=
  ((dats m 0 c).arrAt_eq_of_cover 1 (shiftSub (V m c main_arg0)) (fun t _ => flushed_eq m c t) covered).trans
    (congrArg shiftSub (V_main_arg0 m c))

/-- The kernel's run: the result array ends as the specification of the argument, the argument unchanged. -/
theorem run : θ_run defs (onTc (τ := τ) (main (F := Ideal))) ⟨m, fun _ => 0, ρ⟩ fun r => ∀ c : Dev nD,
      r.2.mem ((c : Thread nD τ).loc main_v0) = shiftSub (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.ArrayValue

end
-- ==== Proof.lean ====
/-
  The kernel and its reference compute the same array on the extended reals.

  The input is 32 one-channel images of 1024 × 1024 entries. Both programs return, at row `r` and column `q` of an
  image, the entry minus the entry two rows above it in the same column, and the entry minus zero in rows 0 and 1
  (`ShiftSpec.shiftSub`): a 5×5 cross-correlation with taps +1 at the centre and −1 two rows up, zero padded.

  * The kernel handles two whole images per grid point: it rotates the block by two rows, masks rows 0 and 1 to zero
    with a row counter, and subtracts (`KernelShift`: the stored value at an index; `ShiftBlocks`: what a point
    writes back is its block of the specification, and the 16 blocks cover the array).
  * The reference pads the array with zeros, cuts out the block that starts two columns in (undoing the column
    padding and leaving the row padding on top), and subtracts (`RefShift`, over the reference's run, `ReferenceRun`).

  The two sides are the same difference `x − y` of the same two extended reals at every index; no law that needs
  finite entries is used, so the precondition is never opened. The kernel's idealization rewrote nothing, so there is
  nothing to preserve. The three frames are the programs' runs with the results dropped.
-/
import proofs.«163202_j29454885716034_2_alg».proof.Defs
import proofs.«163202_j29454885716034_2_alg».proof.Proof.Gen.Kernel
import proofs.«163202_j29454885716034_2_alg».proof.Proof.Gen.Kernel.Frame
import proofs.«163202_j29454885716034_2_alg».proof.Proof.Gen.KernelIdeal
import proofs.«163202_j29454885716034_2_alg».proof.Proof.Gen.KernelIdeal.Frame
import proofs.«163202_j29454885716034_2_alg».proof.Proof.Gen.KernelIdeal.Value
import proofs.«163202_j29454885716034_2_alg».proof.Proof.Gen.ReferenceIdeal
import proofs.«163202_j29454885716034_2_alg».proof.Proof.Gen.Pre_finite_inputs
import proofs.«163202_j29454885716034_2_alg».proof.Proof.ReferenceRun
import proofs.«163202_j29454885716034_2_alg».proof.Proof.RefShift
import proofs.«163202_j29454885716034_2_alg».proof.Proof.ShiftBlocks
import Idealize.ShloMosaic.Adequacy
import Idealize.ShloMosaic.Init

noncomputable section

namespace Cert.Proof

open Idealize.ShloMosaic Idealize.ShloMosaic.TcCoe Idealize.SL.Sem

/-- The kernel as printed runs and leaves its argument as it was. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its argument as it was: its run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- From arguments that agree, the kernel's result array and the reference's both end as the specification of the
    argument. -/
theorem algebraic : Cert.algebraic_KernelIdeal_ReferenceIdeal := by
  intro m ρ m' ρ' _ hagree
  refine ⟨fun c => Cert.ShiftSpec.shiftSub (m ((c.tc : Thread Cert.KernelIdeal.nD Cert.KernelIdeal.τ).loc Cert.KernelIdeal.main_arg0)),
    Cert.KernelIdeal.ArrayValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.RefValue.reference_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
